-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S50000x128 : Shape := ⟨2, ![50000, 128]⟩
abbrev S50000x64 : Shape := ⟨2, ![50000, 64]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S2048x128 .f32) (main_arg1 : FVec F S50000x128 .f32) (main_arg2 : FVec F S50000x64 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S2048x128 : Shape := ⟨2, ![2048, 128]⟩
abbrev S50000x128 : Shape := ⟨2, ![50000, 128]⟩
abbrev S50000x64 : Shape := ⟨2, ![50000, 64]⟩
abbrev S_ : Shape := ⟨0, ![]⟩
abbrev S50048x128 : Shape := ⟨2, ![50048, 128]⟩
abbrev S50048x64 : Shape := ⟨2, ![50048, 64]⟩
abbrev S2048x64 : Shape := ⟨2, ![2048, 64]⟩
abbrev S512x128 : Shape := ⟨2, ![512, 128]⟩
abbrev S2944x128 : Shape := ⟨2, ![2944, 128]⟩
abbrev S2944x64 : Shape := ⟨2, ![2944, 64]⟩
abbrev S512x64 : Shape := ⟨2, ![512, 64]⟩
abbrev S512 : Shape := ⟨1, ![512]⟩
abbrev S512x1 : Shape := ⟨2, ![512, 1]⟩
abbrev S2944 : Shape := ⟨1, ![2944]⟩
abbrev S512x2944 : Shape := ⟨2, ![512, 2944]⟩
abbrev S1x2944 : Shape := ⟨2, ![1, 2944]⟩

abbrev nBuf : Space → Nat
  | .hbm => 10
  | .vmem => 9
  | .smem => 0
  | _ => 0

abbrev bufTy : (tb : Table) → Fin (tcTables nBuf tb) → BufTy
  | .hbm, ⟨0, _⟩ => ⟨S2048x128, .f32⟩
  | .hbm, ⟨1, _⟩ => ⟨S50000x128, .f32⟩
  | .hbm, ⟨2, _⟩ => ⟨S50000x64, .f32⟩
  | .hbm, ⟨3, _⟩ => ⟨S_, .i32⟩
  | .hbm, ⟨4, _⟩ => ⟨S_, .f32⟩
  | .hbm, ⟨5, _⟩ => ⟨S50048x128, .f32⟩
  | .hbm, ⟨6, _⟩ => ⟨S_, .i32⟩
  | .hbm, ⟨7, _⟩ => ⟨S_, .f32⟩
  | .hbm, ⟨8, _⟩ => ⟨S50048x64, .f32⟩
  | .hbm, ⟨9, _⟩ => ⟨S2048x64, .f32⟩
  | .local _ .vmem, ⟨0, _⟩ => ⟨S512x128, .f32⟩
  | .local _ .vmem, ⟨1, _⟩ => ⟨S512x128, .f32⟩
  | .local _ .vmem, ⟨2, _⟩ => ⟨S2944x128, .f32⟩
  | .local _ .vmem, ⟨3, _⟩ => ⟨S2944x128, .f32⟩
  | .local _ .vmem, ⟨4, _⟩ => ⟨S2944x64, .f32⟩
  | .local _ .vmem, ⟨5, _⟩ => ⟨S2944x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32 : BitVec 32 := 16#32
  let v41 : BitVec 1 := Scalar.cmpi .eq arg1 c16_i32
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2944x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2944x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S50000x128_S50048x128_0480_000 : S50000x128.Pads (![0, 0] : Fin 2 → Nat) ![48, 0] ![0, 0] S50048x128
  h_S_ : 0 < S_.numel
  pads_S50000x64_S50048x64_0480_000 : S50000x64.Pads (![0, 0] : Fin 2 → Nat) ![48, 0] ![0, 0] S50048x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x128_S512x128_0_0 : ∀ a, (![0, 0] : Fin 2 → Nat) a + S512x128.size a ≤ S512x128.size a
  h_S512x128 : 0 < S512x128.numel
  inb_S2944x128_S2944x128_0_0 : ∀ a, (![0, 0] : Fin 2 → Nat) a + S2944x128.size a ≤ S2944x128.size a
  h_S2944x128 : 0 < S2944x128.numel
  shapeCasts_S2944x128_S2944x128 : S2944x128.ShapeCasts S2944x128
  inb_S2944x64_S2944x64_0_0 : ∀ a, (![0, 0] : Fin 2 → Nat) a + S2944x64.size a ≤ S2944x64.size a
  h_S2944x64 : 0 < S2944x64.numel
  shapeCasts_S2944x64_S2944x64 : S2944x64.ShapeCasts S2944x64
  reduces_S512x128_S512 : S512x128.Reduces [1] S512
  shapeCasts_S512_S512x1 : S512.ShapeCasts S512x1
  reduces_S2944x128_S2944 : S2944x128.Reduces [1] S2944
  bitsLt_bf16_f32 : FTy.bits .bf16 < FTy.bits .f32
  shapeCasts_S2944_S1x2944 : S2944.ShapeCasts S1x2944
  broadcasts_S512x1_S512x2944 : S512x1.Broadcasts S512x2944
  broadcasts_S1x2944_S512x2944 : S1x2944.Broadcasts S512x2944
  dot_S512x128_S2944x128_S512x2944_1_1_0_0_n_n_wf : DotDims.WF S512x128 S2944x128 S512x2944 [1] [1] [0] [0] [] []
  dot_S512x2944_S2944x64_S512x64_1_0_0_1_n_n_wf : DotDims.WF S512x2944 S2944x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2944x128.size a ≤ S50048x128.size a
  hwx0_1 : ∀ i : grid0.Coords, EltTy.bits .f32 = 32 ∨ (Rect.block (s := S50048x128) S2944x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2944x64.size a ≤ S50048x64.size a
  hwx0_2 : ∀ i : grid0.Coords, EltTy.bits .f32 = 32 ∨ (Rect.block (s := S50048x64) S2944x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S2048x64.size a
  hwx0_3 : ∀ i : grid0.Coords, EltTy.bits .f32 = 32 ∨ (Rect.block (s := S2048x64) S512x64.size (cc0_transform_3 i) (hinb0_3 i)).WholeWords (EltTy.packing .f32)

variable [Facts₀]

def dot_S512x128_S2944x128_S512x2944_1_1_0_0_n_n : DotDims S512x128 S2944x128 S512x2944 where
  lhsContracting := [1]
  rhsContracting := [1]
  lhsNonContracting := [0]
  rhsNonContracting := [0]
  lhsBatch := []
  rhsBatch := []
  wf := dot_S512x128_S2944x128_S512x2944_1_1_0_0_n_n_wf
def dot_S512x2944_S2944x64_S512x64_1_0_0_1_n_n : DotDims S512x2944 S2944x64 S512x64 where
  lhsContracting := [1]
  rhsContracting := [0]
  lhsNonContracting := [0]
  rhsNonContracting := [1]
  lhsBatch := []
  rhsBatch := []
  wf := dot_S512x2944_S2944x64_S512x64_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2944x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2944x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x128 : Shape := ⟨2, ![2048, 128]⟩
abbrev S50000x128 : Shape := ⟨2, ![50000, 128]⟩
abbrev S50000x64 : Shape := ⟨2, ![50000, 64]⟩
abbrev S_ : Shape := ⟨0, ![]⟩
abbrev S2048 : Shape := ⟨1, ![2048]⟩
abbrev S2048x1 : Shape := ⟨2, ![2048, 1]⟩
abbrev S50000 : Shape := ⟨1, ![50000]⟩
abbrev S1x50000 : Shape := ⟨2, ![1, 50000]⟩
abbrev S2048x50000 : Shape := ⟨2, ![2048, 50000]⟩
abbrev S128x50000 : Shape := ⟨2, ![128, 50000]⟩
abbrev S2048x64 : Shape := ⟨2, ![2048, 64]⟩

abbrev nBuf : Space → Nat
  | .hbm => 33
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S50000x128, .f32⟩
  | .hbm, ⟨2, _⟩ => ⟨S50000x64, .f32⟩
  | .hbm, ⟨3, _⟩ => ⟨S2048x128, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S50000x128, .f32⟩
  | .hbm, ⟨8, _⟩ => ⟨S_, .f32⟩
  | .hbm, ⟨9, _⟩ => ⟨S50000, .f32⟩
  | .hbm, ⟨10, _⟩ => ⟨S1x50000, .f32⟩
  | .hbm, ⟨11, _⟩ => ⟨S2048x50000, .f32⟩
  | .hbm, ⟨12, _⟩ => ⟨S2048x50000, .f32⟩
  | .hbm, ⟨13, _⟩ => ⟨S2048x50000, .f32⟩
  | .hbm, ⟨14, _⟩ => ⟨S128x50000, .f32⟩
  | .hbm, ⟨15, _⟩ => ⟨S2048x50000, .f32⟩
  | .hbm, ⟨16, _⟩ => ⟨S_, .f32⟩
  | .hbm, ⟨17, _⟩ => ⟨S2048x50000, .f32⟩
  | .hbm, ⟨18, _⟩ => ⟨S2048x50000, .f32⟩
  | .hbm, ⟨19, _⟩ => ⟨S2048x50000, .f32⟩
  | .hbm, ⟨20, _⟩ => ⟨S_, .f32⟩
  | .hbm, ⟨21, _⟩ => ⟨S2048x50000, .f32⟩
  | .hbm, ⟨22, _⟩ => ⟨S2048x50000, .f32⟩
  | .hbm, ⟨23, _⟩ => ⟨S2048x50000, .f32⟩
  | .hbm, ⟨24, _⟩ => ⟨S2048x50000, .f32⟩
  | .hbm, ⟨25, _⟩ => ⟨S_, .f32⟩
  | .hbm, ⟨26, _⟩ => ⟨S2048x50000, .f32⟩
  | .hbm, ⟨27, _⟩ => ⟨S2048x50000, .f32⟩
  | .hbm, ⟨28, _⟩ => ⟨S_, .f32⟩
  | .hbm, ⟨29, _⟩ => ⟨S2048x50000, .f32⟩
  | .hbm, ⟨30, _⟩ => ⟨S2048x50000, .f32⟩
  | .hbm, ⟨31, _⟩ => ⟨S2048x50000, .f32⟩
  | .hbm, ⟨32, _⟩ => ⟨S2048x64, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S2048x128_S2048_d1 : S2048x128.ReducesTo [1] S2048
  h_S_ : 0 < S_.numel
  bcast_S2048_S2048x1_0 : S2048.BroadcastsInDim S2048x1 (![0] : Fin 1 → Fin S2048x1.rank)
  reducesTo_S50000x128_S50000_d1 : S50000x128.ReducesTo [1] S50000
  bcast_S50000_S1x50000_1 : S50000.BroadcastsInDim S1x50000 (![1] : Fin 1 → Fin S1x50000.rank)
  bcast_S2048x1_S2048x50000_0_1 : S2048x1.BroadcastsInDim S2048x50000 (![0, 1] : Fin 2 → Fin S2048x50000.rank)
  bcast_S1x50000_S2048x50000_0_1 : S1x50000.BroadcastsInDim S2048x50000 (![0, 1] : Fin 2 → Fin S2048x50000.rank)
  transposes_S50000x128_S128x50000_1_0 : S50000x128.Transposes [1, 0] S128x50000
  bcast_S_S2048x50000 : S_.BroadcastsInDim S2048x50000 (![] : Fin 0 → Fin S2048x50000.rank)
  dot_S2048x128_S128x50000_S2048x50000_1_0_0_1_n_n_wf : DotDims.WF S2048x128 S128x50000 S2048x50000 [1] [0] [0] [1] [] []
  dot_S2048x50000_S50000x64_S2048x64_1_0_0_1_n_n_wf : DotDims.WF S2048x50000 S50000x64 S2048x64 [1] [0] [0] [1] [] []

variable [Facts₀]

def dot_S2048x128_S128x50000_S2048x50000_1_0_0_1_n_n : DotDims S2048x128 S128x50000 S2048x50000 where
  lhsContracting := [1]
  rhsContracting := [0]
  lhsNonContracting := [0]
  rhsNonContracting := [1]
  lhsBatch := []
  rhsBatch := []
  wf := dot_S2048x128_S128x50000_S2048x50000_1_0_0_1_n_n_wf
def dot_S2048x50000_S50000x64_S2048x64_1_0_0_1_n_n : DotDims S2048x50000 S50000x64 S2048x64 where
  lhsContracting := [1]
  rhsContracting := [0]
  lhsNonContracting := [0]
  rhsNonContracting := [1]
  lhsBatch := []
  rhsBatch := []
  wf := dot_S2048x50000_S50000x64_S2048x64_1_0_0_1_n_n_wf

class Facts : Prop extends Facts₀ where

variable [Facts]
-- ==== Proof.Spec.lean ====
/-
  The regression both programs compute, written once over arrays read at natural-number coordinates.

  For a query row `r` and a training row `n` the weight is
      kw = exp ( ( -(sqrt (max (|x_r|² + |t_n|² - 2·⟨x_r, t_n⟩) 0)) / c ) / 2 ),
  with |·|² and ⟨·,·⟩ sums over the 128 feature columns, and the result at (r, o) is the sum over the training
  rows `n` of `kw · w[n, o]`. An array is read through `ext2`, which is zero outside the array's extents: a training
  array padded with zero rows then reads exactly as the unpadded one, and a padded row contributes `kw · 0 = 0`.
  The two laws used to join the programs are stated here over sums on ranges of naturals: a running sum over
  the first `a` rows plus a block of `b` rows is the sum over the first `a + b` rows, and rows from 50000 on
  contribute nothing. Both hold on the extended reals with no finiteness hypothesis (only `x + 0 = x`,
  `x · 0 = 0` and re-association of sums are used).
-/
import Idealize.ShloMosaic.PureOps.Ideal
import Idealize.ShloMosaic.PureOps.Ideal.Laws
import Idealize.ShloMosaic.Lib.ValueIdx

noncomputable section

open Idealize.ShloMosaic
open scoped BigOperators

namespace Cert.Rbf

/-- A rank-2 array read at natural coordinates: its entry inside the extents, zero outside. -/
def ext2 {A B : ℕ} (x : (⟨2, ![A, B]⟩ : Shape).Idx → EReal) (r d : ℕ) : EReal :=
  if h : r < A ∧ d < B then x (ValueIdx.ix2 ⟨r, h.1⟩ ⟨d, h.2⟩) else 0

/-- At an index of the array, `ext2` is the array. -/
theorem ext2_eq {A B : ℕ} (x : (⟨2, ![A, B]⟩ : Shape).Idx → EReal) (j : (⟨2, ![A, B]⟩ : Shape).Idx) (r d : ℕ)
    (h0 : (j 0).val = r) (h1 : (j 1).val = d) : x j = ext2 x r d := by
  subst h0; subst h1
  unfold ext2
  rw [dif_pos ⟨ValueIdx.idx2_lt0 j, ValueIdx.idx2_lt1 j⟩]
  exact congrArg x (funext fun a => by match a with | ⟨0, _⟩ => rfl | ⟨1, _⟩ => rfl)

/-- Past the last row, `ext2` is zero. -/
theorem ext2_of_le {A B : ℕ} (x : (⟨2, ![A, B]⟩ : Shape).Idx → EReal) (r d : ℕ) (h : A ≤ r) : ext2 x r d = 0 := by
  unfold ext2
  rw [dif_neg (fun hh => absurd hh.1 (Nat.not_lt.mpr h))]

/-- The weight between a query row and a training row, from the two squared norms and the inner product. -/
def kw (sx st dt : EReal) : EReal :=
  Ideal.exp (Ideal.div (Ideal.div (-(Ideal.sqrt (max (sx + st - Ideal.ofBits .f32 0x40000000#32 * dt) 0)))
    (Ideal.ofBits .f32 0x41213BF8#32)) (Ideal.ofBits .f32 0x40000000#32))

/-- A row's squared norm over the 128 columns. -/
def rowSq (X : ℕ → ℕ → EReal) (r : ℕ) : EReal := ∑ d : Fin 128, X r d.val * X r d.val

/-- Two rows' inner product over the 128 columns. -/
def rowDot (X T : ℕ → ℕ → EReal) (r n : ℕ) : EReal := ∑ d : Fin 128, X r d.val * T n d.val

/-- Training row `n`'s contribution to the result at (r, o). -/
def term (X T W : ℕ → ℕ → EReal) (r o n : ℕ) : EReal :=
  kw (rowSq X r) (rowSq T n) (rowDot X T r n) * W n o

/-- The result at (r, o): the contributions of the 50000 training rows. -/
def G (X T W : ℕ → ℕ → EReal) (r o : ℕ) : EReal := ∑ n ∈ Finset.range 50000, term X T W r o n

/-- A running sum over the first `a` rows plus a block of the next `b` rows is the sum over the first `a + b`. -/
theorem sum_range_add_block (f : ℕ → EReal) (a b : ℕ) :
    (∑ n ∈ Finset.range a, f n) + ∑ q : Fin b, f (a + q.val) = ∑ n ∈ Finset.range (a + b), f n := by
  rw [Finset.sum_range_add, Fin.sum_univ_eq_sum_range (fun q => f (a + q)) b]

/-- Rows that contribute zero from `a` on can be dropped from a sum over the first `a + b` rows. -/
theorem sum_range_drop_tail (f : ℕ → EReal) (a b : ℕ) (h : ∀ n, a ≤ n → f n = 0) :
    ∑ n ∈ Finset.range (a + b), f n = ∑ n ∈ Finset.range a, f n := by
  rw [Finset.sum_range_add, Finset.sum_eq_zero (fun q _ => h (a + q) (Nat.le_add_right a q)), add_zero]

/-- A training row past the array's last contributes nothing: its weight multiplies a zero. -/
theorem term_of_le {B : ℕ} (X T : ℕ → ℕ → EReal) (w : (⟨2, ![50000, B]⟩ : Shape).Idx → EReal) (r o n : ℕ)
    (h : 50000 ≤ n) : term X T (ext2 w) r o n = 0 := by
  unfold term
  rw [ext2_of_le w n o h, mul_zero]

end Cert.Rbf

end
-- ==== Proof.Pieces.lean ====
/-
  What one run of the kernel body leaves behind, as values, in each of its three control cases.

  The body keeps a 512 × 64 accumulator in a scratch buffer across the 17 grid points of one row block.
  At the first point of a row block it stores the zero block, reads it back, and stores `0 + M`; at a middle point
  it reads what the point before left, `acc`, and stores `acc + M`; at the last point it does the same and then
  copies the accumulator into the output block. Here `M` is the product, computed from the point's three input
  blocks, that the body's one arithmetic payload adds to what it loaded. Each statement below reads the stores a
  case's run recorded back as that payload of the case's loads: every load and store covers its whole buffer, so
  a buffer read after a store is the stored value.
-/
import proofs.«110789_j33002528702615_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a row block: the scratch ends at the payload over the zero block. -/
theorem scratch_first (c : Dev nD) (i : grid0.Coords) (a2 : Memref sig .tc .vmem S512x128 .f32) (h2 : a2.IsWhole) (a3 : Memref sig .tc .vmem S2944x128 .f32) (h3 : a3.IsWhole) (a4 : Memref sig .tc .vmem S2944x64 .f32) (h4 : a4.IsWhole) (a5 : Memref sig .tc .vmem S512x64 .f32) (h5 : a5.IsWhole) (a6 : Memref sig .tc .vmem S512x64 .f32) (h6 : a6.IsWhole) (hc0 : cond0_0 i) (hc1 : ¬cond0_1 i) (x0 : Vec F S512x128 .f32) (x1 : Vec F S2944x128 .f32) (x2 : Vec F S2944x64 .f32) :
    sout0_A_0 c i a2 h2 a3 h3 a4 h4 a5 h5 a6 h6 hc0 hc1 x0 x1 x2 = k0_pay1 (k0_pay3 x0 x1 x2 k0_pay2) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x64) hz, View.readCov_unit_zero (S := S512x64) _ hz]
  simp only [View.readAt_eq_ld, h2.read_unread, h3.read_unread, h4.read_unread, h6.read_unread,
    View.ld_unit_zero (S := S512x128) hz, View.ld_unit_zero (S := S2944x128) hz, View.ld_unit_zero (S := S2944x64) hz,
    View.ld_unit_zero (S := S512x64) hz]

/-- A middle point: the scratch ends at the payload over what the point before left. -/
theorem scratch_middle (c : Dev nD) (i : grid0.Coords) (a2 : Memref sig .tc .vmem S512x128 .f32) (h2 : a2.IsWhole) (a3 : Memref sig .tc .vmem S2944x128 .f32) (h3 : a3.IsWhole) (a4 : Memref sig .tc .vmem S2944x64 .f32) (h4 : a4.IsWhole) (a5 : Memref sig .tc .vmem S512x64 .f32) (h5 : a5.IsWhole) (a6 : Memref sig .tc .vmem S512x64 .f32) (h6 : a6.IsWhole) (hc0 : ¬cond0_0 i) (hc1 : ¬cond0_1 i) (x0 : Vec F S512x128 .f32) (x1 : Vec F S2944x128 .f32) (x2 : Vec F S2944x64 .f32) (xs0 : Vec F S512x64 .f32) :
    sout0_B_0 c i a2 h2 a3 h3 a4 h4 a5 h5 a6 h6 hc0 hc1 x0 x1 x2 xs0 = k0_pay1 (k0_pay3 x0 x1 x2 xs0) := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread,
    View.ld_unit_zero (S := S512x128) hz, View.ld_unit_zero (S := S2944x128) hz, View.ld_unit_zero (S := S2944x64) hz,
    View.ld_unit_zero (S := S512x64) hz]

/-- The last point of a row block: the scratch ends at the payload over what the point before left, -/
theorem scratch_last (c : Dev nD) (i : grid0.Coords) (a2 : Memref sig .tc .vmem S512x128 .f32) (h2 : a2.IsWhole) (a3 : Memref sig .tc .vmem S2944x128 .f32) (h3 : a3.IsWhole) (a4 : Memref sig .tc .vmem S2944x64 .f32) (h4 : a4.IsWhole) (a5 : Memref sig .tc .vmem S512x64 .f32) (h5 : a5.IsWhole) (a6 : Memref sig .tc .vmem S512x64 .f32) (h6 : a6.IsWhole) (hc0 : ¬cond0_0 i) (hc1 : cond0_1 i) (x0 : Vec F S512x128 .f32) (x1 : Vec F S2944x128 .f32) (x2 : Vec F S2944x64 .f32) (xs0 : Vec F S512x64 .f32) :
    sout0_C_0 c i a2 h2 a3 h3 a4 h4 a5 h5 a6 h6 hc0 hc1 x0 x1 x2 xs0 = k0_pay1 (k0_pay3 x0 x1 x2 xs0) := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S512x128) hz, View.ld_unit_zero (S := S2944x128) hz, View.ld_unit_zero (S := S2944x64) hz,
    View.ld_unit_zero (S := S512x64) hz]

/-- and the output block is a copy of it. -/
theorem output_last (c : Dev nD) (i : grid0.Coords) (a2 : Memref sig .tc .vmem S512x128 .f32) (h2 : a2.IsWhole) (a3 : Memref sig .tc .vmem S2944x128 .f32) (h3 : a3.IsWhole) (a4 : Memref sig .tc .vmem S2944x64 .f32) (h4 : a4.IsWhole) (a5 : Memref sig .tc .vmem S512x64 .f32) (h5 : a5.IsWhole) (a6 : Memref sig .tc .vmem S512x64 .f32) (h6 : a6.IsWhole) (hc0 : ¬cond0_0 i) (hc1 : cond0_1 i) (x0 : Vec F S512x128 .f32) (x1 : Vec F S2944x128 .f32) (x2 : Vec F S2944x64 .f32) (xs0 : Vec F S512x64 .f32) :
    out0_C_3 c i a2 h2 a3 h3 a4 h4 a5 h5 a6 h6 hc0 hc1 x0 x1 x2 xs0 = k0_pay1 (k0_pay3 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S512x64) _ hz]
  simp only [View.readAt_eq_ld, h2.read_unread, h3.read_unread, h4.read_unread, h6.read_unread,
    View.ld_unit_zero (S := S512x128) hz, View.ld_unit_zero (S := S2944x128) hz, View.ld_unit_zero (S := S2944x64) hz,
    View.ld_unit_zero (S := S512x64) hz]

end Cert.KernelIdeal.Pieces

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's arithmetic, read at one entry (r, o) of the 512 × 64 block it stores, on the extended reals.

  From a 512 × 128 block `x` of query rows, a 2944 × 128 block `t` of training rows, a 2944 × 64 block `w` of
  weights and the loaded accumulator `acc`, the stored value at (r, o) is
      acc[r, o] + ∑_{q < 2944} kw(|x_r|², |t_q|², ⟨x_r, t_q⟩) · w[q, o].
  The squared norms are lane sums kept as a column (for `x`) and as a row (for `t`) and broadcast to 512 × 2944; the
  inner products and the final product are matrix products into a zero accumulator, so each is a plain sum over
  the contracted axis; roundings to a narrower format are the identity on the extended reals; and the body's
  `0 - s` is `-s`.
-/
import proofs.«110789_j33002528702615_1_alg».proof.Proof.Spec
import proofs.«110789_j33002528702615_1_alg».proof.Proof.LibColumn
import proofs.«110789_j33002528702615_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen Cert.Rbf Cert.LibColumn

/-- The dimension numbers of the inner products (512 × 128 by 2944 × 128, both contracted on the columns) -/
abbrev D1 : DotDims S512x128 S2944x128 S512x2944 := dot_S512x128_S2944x128_S512x2944_1_1_0_0_n_n
/-- and of the final product (512 × 2944 by 2944 × 64). -/
abbrev D2 : DotDims S512x2944 S2944x64 S512x64 := dot_S512x2944_S2944x64_S512x64_1_0_0_1_n_n

theorem D1_lhs0 (i : S512x2944.Idx) (q : D1.contr.Idx) : (D1.lhsIdx i q 0).val = (i 0).val := by
  unfold DotDims.lhsIdx
  rw [dif_neg (show ¬(0 : Fin S512x128.rank) ∈ D1.lhsBatch by decide), dif_pos (show (0 : Fin S512x128.rank) ∈ D1.lhsNonContracting by decide)]
  rfl
theorem D1_lhs1 (i : S512x2944.Idx) (q : D1.contr.Idx) : (D1.lhsIdx i q 1).val = (q ⟨0, by decide⟩).val :=
  D1.lhsIdx_val_of_single rfl i q
theorem D1_rhs0 (i : S512x2944.Idx) (q : D1.contr.Idx) : (D1.rhsIdx i q 0).val = (i 1).val := by
  unfold DotDims.rhsIdx
  rw [dif_neg (show ¬(0 : Fin S2944x128.rank) ∈ D1.rhsBatch by decide), dif_pos (show (0 : Fin S2944x128.rank) ∈ D1.rhsNonContracting by decide)]
  rfl
theorem D1_rhs1 (i : S512x2944.Idx) (q : D1.contr.Idx) : (D1.rhsIdx i q 1).val = (q ⟨0, by decide⟩).val :=
  D1.rhsIdx_val_of_single rfl i q

theorem D2_lhs0 (i : S512x64.Idx) (q : D2.contr.Idx) : (D2.lhsIdx i q 0).val = (i 0).val := by
  unfold DotDims.lhsIdx
  rw [dif_neg (show ¬(0 : Fin S512x2944.rank) ∈ D2.lhsBatch by decide), dif_pos (show (0 : Fin S512x2944.rank) ∈ D2.lhsNonContracting by decide)]
  rfl
theorem D2_lhs1 (i : S512x64.Idx) (q : D2.contr.Idx) : (D2.lhsIdx i q 1).val = (q ⟨0, by decide⟩).val :=
  D2.lhsIdx_val_of_single rfl i q
theorem D2_rhs0 (i : S512x64.Idx) (q : D2.contr.Idx) : (D2.rhsIdx i q 0).val = (q ⟨0, by decide⟩).val :=
  D2.rhsIdx_val_of_single rfl i q
theorem D2_rhs1 (i : S512x64.Idx) (q : D2.contr.Idx) : (D2.rhsIdx i q 1).val = (i 1).val := by
  unfold DotDims.rhsIdx
  rw [dif_neg (show ¬(1 : Fin S2944x64.rank) ∈ D2.rhsBatch by decide), dif_pos (show (1 : Fin S2944x64.rank) ∈ D2.rhsNonContracting by decide)]
  rfl

/-- The inner products: entry (r, q) is the sum over the 128 columns of x[r, d] · t[q, d]. -/
theorem dot1_apply (a : FVec Ideal S512x128 .bf16) (b : FVec Ideal S2944x128 .bf16) (r : Fin 512) (q : Fin 2944) :
    matmul D1 none a b (constant S512x2944 .f32 0x00000000#32) (ix2 r q) = ∑ d : Fin 128, a (ix2 r d) * b (ix2 q d) := by
  refine (Ideal.matmul_constant_zero_apply D1 none a b (ix2 r q)).trans ?_
  rw [← Equiv.sum_comp (contrEquiv1 D1 128 rfl rfl).symm]
  refine Finset.sum_congr rfl fun k _ => ?_
  have hk := contrEquiv1_symm_val D1 128 rfl rfl k
  have el : D1.lhsIdx (ix2 r q) ((contrEquiv1 D1 128 rfl rfl).symm k) = ix2 r k := funext fun ax => Fin.ext (by
    match ax with
    | ⟨0, _⟩ => exact D1_lhs0 _ _
    | ⟨1, _⟩ => exact (D1_lhs1 _ _).trans hk)
  have er : D1.rhsIdx (ix2 r q) ((contrEquiv1 D1 128 rfl rfl).symm k) = ix2 q k := funext fun ax => Fin.ext (by
    match ax with
    | ⟨0, _⟩ => exact D1_rhs0 _ _
    | ⟨1, _⟩ => exact (D1_rhs1 _ _).trans hk)
  rw [el, er]

/-- The final product: entry (r, o) is the sum over the block's 2944 training rows of k[r, q] · w[q, o]. -/
theorem dot2_apply (a : FVec Ideal S512x2944 .bf16) (b : FVec Ideal S2944x64 .bf16) (r : Fin 512) (o : Fin 64) :
    matmul D2 none a b (constant S512x64 .f32 0x00000000#32) (ix2 r o) = ∑ q : Fin 2944, a (ix2 r q) * b (ix2 q o) := by
  refine (Ideal.matmul_constant_zero_apply D2 none a b (ix2 r o)).trans ?_
  rw [← Equiv.sum_comp (contrEquiv1 D2 2944 rfl rfl).symm]
  refine Finset.sum_congr rfl fun k _ => ?_
  have hk := contrEquiv1_symm_val D2 2944 rfl rfl k
  have el : D2.lhsIdx (ix2 r o) ((contrEquiv1 D2 2944 rfl rfl).symm k) = ix2 r k := funext fun ax => Fin.ext (by
    match ax with
    | ⟨0, _⟩ => exact D2_lhs0 _ _
    | ⟨1, _⟩ => exact (D2_lhs1 _ _).trans hk)
  have er : D2.rhsIdx (ix2 r o) ((contrEquiv1 D2 2944 rfl rfl).symm k) = ix2 k o := funext fun ax => Fin.ext (by
    match ax with
    | ⟨0, _⟩ => exact (D2_rhs0 _ _).trans hk
    | ⟨1, _⟩ => exact D2_rhs1 _ _)
  rw [el, er]

/-- A query block's squared row norms, kept as a column and broadcast along the 2944 lanes: at (r, q), row r's. -/
theorem sqCol_apply (v : FVec Ideal S512x128 .f32) (r : Fin 512) (q : Fin 2944) :
    broadcastTo S512x2944 (shapeCast S512x1 (multiReduction .add [1] S512 (mulf v v) 0x00000000#32 reduces_S512x128_S512 (.inl rfl) rfl) shapeCasts_S512_S512x1) broadcasts_S512x1_S512x2944 (ix2 r q)
      = ∑ d : Fin 128, v (ix2 r d) * v (ix2 r d) := by
  refine (broadcastTo_a1_ab_apply _ broadcasts_S512x1_S512x2944 r q).trans ?_
  refine (shapeCast_a_a1_apply _ shapeCasts_S512_S512x1 r 0).trans ?_
  refine (Ideal.multiReduction_add_single _ 0x00000000#32 reduces_S512x128_S512 (.inl rfl) rfl (ix1 r)).trans ?_
  exact Finset.sum_congr rfl fun d _ => congrArg (fun j => v j * v j)
    (funext fun ax => Fin.ext (by match ax with | ⟨0, _⟩ => rfl | ⟨1, _⟩ => rfl))

/-- A training block's squared row norms, kept as a row and broadcast down the 512 rows: at (r, q), row q's. -/
theorem sqRow_apply (v : FVec Ideal S2944x128 .f32) (r : Fin 512) (q : Fin 2944) :
    broadcastTo S512x2944 (shapeCast S1x2944 (multiReduction .add [1] S2944 (mulf v v) 0x00000000#32 reduces_S2944x128_S2944 (.inl rfl) rfl) shapeCasts_S2944_S1x2944) broadcasts_S1x2944_S512x2944 (ix2 r q)
      = ∑ d : Fin 128, v (ix2 q d) * v (ix2 q d) := by
  refine (broadcastTo_1b_ab_apply _ broadcasts_S1x2944_S512x2944 r q).trans ?_
  refine (shapeCast_a_1a_apply _ shapeCasts_S2944_S1x2944 0 q).trans ?_
  refine (Ideal.multiReduction_add_single _ 0x00000000#32 reduces_S2944x128_S2944 (.inl rfl) rfl (ix1 q)).trans ?_
  exact Finset.sum_congr rfl fun d _ => congrArg (fun j => v j * v j)
    (funext fun ax => Fin.ext (by match ax with | ⟨0, _⟩ => rfl | ⟨1, _⟩ => rfl))

/-- The pointwise chain from the two norms and the inner product to the weight, at one entry. -/
theorem weight_apply (A B D : FVec Ideal S512x2944 .f32) (j : S512x2944.Idx) :
    truncf .bf16 (exp (divf (divf (subf (broadcast S512x2944 (Scalar.ofBits (F := Ideal) .f32 0x00000000#32))
      (sqrt (maximumf (subf (addf A B) (mulf (broadcast S512x2944 (Scalar.ofBits (F := Ideal) .f32 0x40000000#32)) D))
        (broadcast S512x2944 (Scalar.ofBits (F := Ideal) .f32 0x00000000#32)))))
      (broadcast S512x2944 (Scalar.ofBits (F := Ideal) .f32 0x41213BF8#32)))
      (broadcast S512x2944 (Scalar.ofBits (F := Ideal) .f32 0x40000000#32)))) bitsLt_bf16_f32 j
      = kw (A j) (B j) (D j) := by
  show Ideal.exp (Ideal.div (Ideal.div (Ideal.ofBits .f32 0x00000000#32 - Ideal.sqrt (max (A j + B j - Ideal.ofBits .f32 0x40000000#32 * D j)
    (Ideal.ofBits .f32 0x00000000#32))) (Ideal.ofBits .f32 0x41213BF8#32)) (Ideal.ofBits .f32 0x40000000#32)) = _
  unfold kw
  rw [Ideal.ofBits_zero_f32, zero_sub]

/-- The body's one arithmetic payload at entry (r, o): the loaded accumulator plus the block's 2944 contributions. -/
theorem pay3_apply (v3 : Vec Ideal S512x128 .f32) (v4 : Vec Ideal S2944x128 .f32) (v6 : Vec Ideal S2944x64 .f32)
    (v35 : Vec Ideal S512x64 .f32) (r : Fin 512) (o : Fin 64) :
    k0_pay3 (F := Ideal) v3 v4 v6 v35 (ix2 r o)
      = (v35 (ix2 r o) : EReal) + ∑ q : Fin 2944, kw (∑ d : Fin 128, (v3 (ix2 r d) : EReal) * v3 (ix2 r d))
          (∑ d : Fin 128, (v4 (ix2 q d) : EReal) * v4 (ix2 q d)) (∑ d : Fin 128, (v3 (ix2 r d) : EReal) * v4 (ix2 q d)) * v6 (ix2 q o) := by
  unfold k0_pay3
  dsimp only
  simp only [shapeCast_self]
  refine congrArg ((v35 (ix2 r o) : EReal) + ·) ?_
  refine (dot2_apply _ _ r o).trans (Finset.sum_congr rfl fun q _ => ?_)
  refine congrArg (· * (v6 (ix2 q o) : EReal)) ?_
  refine (weight_apply _ _ _ (ix2 r q)).trans ?_
  exact congr (congr (congrArg kw (sqCol_apply v3 r q)) (sqRow_apply v4 r q)) (dot1_apply _ _ r q)

/-- The store's own payload is a cast of a block to its own shape: the identity. -/
theorem pay1_eq {F : FTy → Type} [FloatOps F] (v : FVec F S512x64 .f32) : k0_pay1 v = v := by
  unfold k0_pay1
  exact shapeCast_self v _

/-- The block the first point of a row block resets the accumulator to is zero everywhere. -/
theorem pay2_apply (j : S512x64.Idx) : k0_pay2 (F := Ideal) j = 0 := by
  unfold k0_pay2
  rw [shapeCast_self]
  exact Ideal.ofBits_zero_f32

end Cert.KernelIdeal.Payload

end
-- ==== Proof.Blocks.lean ====
/-
  The three input blocks of a grid point, read at an entry as the argument arrays at natural coordinates.

  The grid has 4 × 17 points; point `t` handles query row block `t / 17` (512 rows) and training row block
  `t % 17` (2944 rows). The training array and the weight array are staged from copies padded with 48 zero rows
  (to 17 · 2944 = 50048 rows); read through `ext2`, which is zero outside an array, a padded copy is the array
  itself. So entry (r, d) of the query block is x[512·(t/17) + r, d], entry (q, d) of the training block is
  t[2944·(t%17) + q, d] (zero from row 50000 on), and entry (q, o) of the weight block is w[2944·(t%17) + q, o]
  (likewise).
-/
import proofs.«110789_j33002528702615_1_alg».proof.Proof.Spec
import proofs.«110789_j33002528702615_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx

noncomputable section

open Idealize.ShloMosaic Idealize.ShloMosaic.TcCoe Idealize.SL.Sem Idealize.ShloMosaic.ValueIdx

namespace Cert.Rbf

/-- An array padded with `p` rows of a zero value after its last row reads, through `ext2`, as the array. -/
theorem ext2_pad_rows {A A' B p : ℕ} (x : (⟨2, ![A, B]⟩ : Shape).Idx → EReal) {u : Shape} (v : u.Idx → EReal)
    (h : (⟨2, ![A, B]⟩ : Shape).Pads ![0, 0] ![p, 0] ![0, 0] ⟨2, ![A', B]⟩) (hu : 0 < u.numel)
    (hv : v (Shape.Idx.first hu) = 0) (hle : A ≤ A') (n d : ℕ) :
    ext2 (pad ⟨2, ![A', B]⟩ ![0, 0] ![p, 0] ![0, 0] x v h hu) n d = ext2 x n d := by
  unfold ext2
  by_cases hA' : n < A' ∧ d < B
  · rw [dif_pos hA']
    by_cases hA : n < A ∧ d < B
    · rw [dif_pos hA]
      exact pad_apply_of_inside _ _ _ x v h hu _ (ix2 ⟨n, hA.1⟩ ⟨d, hA.2⟩) (fun a => by
        match a with
        | ⟨0, _⟩ => show n = 0 + n * (0 + 1); omega
        | ⟨1, _⟩ => show d = 0 + d * (0 + 1); omega)
    · rw [dif_neg hA]
      refine (pad_apply_of_not_inside _ _ _ x v h hu _ (0 : Fin 2) ?_).trans hv
      intro hh
      have h3 : (n - 0) / (0 + 1) < A := hh.2.2
      exact hA ⟨by omega, hA'.2⟩
  · rw [dif_neg hA']
    rw [dif_neg (fun hA => hA' ⟨lt_of_lt_of_le hA.1 hle, hA.2⟩)]

end Cert.Rbf

namespace Cert.KernelIdeal.Blocks

open Cert.KernelIdeal Cert.KernelIdeal.Gen Cert.Rbf

variable (m : (ℓ : Loc nD τ sig) → Buf (Elt Ideal) ℓ)

/-- The query, training and weight arrays as launched, read at natural coordinates. -/
abbrev Xq (c : Dev nD) : ℕ → ℕ → EReal := ext2 (A := 2048) (B := 128) (m ((c : Thread nD τ).loc main_arg0))
abbrev Tn (c : Dev nD) : ℕ → ℕ → EReal := ext2 (A := 50000) (B := 128) (m ((c : Thread nD τ).loc main_arg1))
abbrev Wn (c : Dev nD) : ℕ → ℕ → EReal := ext2 (A := 50000) (B := 64) (m ((c : Thread nD τ).loc main_arg2))

/-- The padding value, an integer zero converted, is the real zero. -/
theorem padval_zero : (sitofp (F := Ideal) .f32 (constantI S_ 32 0#32) : S_.Idx → EReal) (Shape.Idx.first h_S_) = 0 :=
  sitofp_zero

/-- When the region is entered, the staged training array is the training argument padded with 48 zero rows, -/
theorem V_train (c : Dev nD) : (V m c main_v0 : S50048x128.Idx → EReal)
    = pad S50048x128 ![0, 0] ![48, 0] ![0, 0] (m ((c : Thread nD τ).loc main_arg1)) (sitofp (F := Ideal) .f32 (constantI S_ 32 0#32))
        pads_S50000x128_S50048x128_0480_000 h_S_ := by
  dsimp only [V]
  simp only [hostOps0, hostOps0_1, hostOps0_2, hostOps0_3, List.flatten_cons, List.flatten_nil, List.append_nil, List.cons_append,
    List.nil_append]
  after_results
  rfl

/-- and the staged weight array the weight argument padded likewise. -/
theorem V_weights (c : Dev nD) : (V m c main_v1 : S50048x64.Idx → EReal)
    = pad S50048x64 ![0, 0] ![48, 0] ![0, 0] (m ((c : Thread nD τ).loc main_arg2)) (sitofp (F := Ideal) .f32 (constantI S_ 32 0#32))
        pads_S50000x64_S50048x64_0480_000 h_S_ := by
  dsimp only [V]
  simp only [hostOps0, hostOps0_1, hostOps0_2, hostOps0_3, List.flatten_cons, List.flatten_nil, List.append_nil, List.cons_append,
    List.nil_append]
  after_results
  rfl

/-- The block indices of the four windows at a point, decided over the 68 points. -/
theorem idx_facts : ∀ t : Fin cfg0.N, win0_0.index t (0 : Fin 2) = t.val / 17 ∧ win0_0.index t (1 : Fin 2) = 0
    ∧ win0_1.index t (0 : Fin 2) = t.val % 17 ∧ win0_1.index t (1 : Fin 2) = 0
    ∧ win0_2.index t (0 : Fin 2) = t.val % 17 ∧ win0_2.index t (1 : Fin 2) = 0
    ∧ win0_3.index t (0 : Fin 2) = t.val / 17 ∧ win0_3.index t (1 : Fin 2) = 0 :=
  (by decide +kernel : ∀ t : Fin grid0.N, _)

/-- The query block at point `t`. -/
theorem iblk0_apply (c : Dev nD) (t : Fin cfg0.N) (r : Fin 512) (d : Fin 128) :
    (iblk m c 0 t : Vec Ideal S512x128 .f32) (ix2 r d) = Xq m c (512 * (t.val / 17) + r.val) d.val := by
  obtain ⟨e0, e1, -⟩ := idx_facts t
  unfold iblk
  rw [View.read_apply]
  show V m c main_arg0 _ = _
  rw [V_main_arg0]
  refine ext2_eq (A := 2048) (B := 128) _ _ _ _ ?_ ?_
  · show win0_0.index t (0 : Fin 2) * 512 + 1 * r.val = 512 * (t.val / 17) + r.val
    rw [e0]; omega
  · show win0_0.index t (1 : Fin 2) * 128 + 1 * d.val = d.val
    rw [e1]; omega

/-- The training block at point `t`. -/
theorem iblk1_apply (c : Dev nD) (t : Fin cfg0.N) (q : Fin 2944) (d : Fin 128) :
    (iblk m c 1 t : Vec Ideal S2944x128 .f32) (ix2 q d) = Tn m c (2944 * (t.val % 17) + q.val) d.val := by
  obtain ⟨-, -, e0, e1, -⟩ := idx_facts t
  unfold iblk
  rw [View.read_apply]
  show V m c main_v0 _ = _
  rw [V_train]
  refine (ext2_eq (A := 50048) (B := 128) _ _ _ _ ?_ ?_).trans
    (ext2_pad_rows _ _ pads_S50000x128_S50048x128_0480_000 h_S_ padval_zero (by decide) _ _)
  · show win0_1.index t (0 : Fin 2) * 2944 + 1 * q.val = 2944 * (t.val % 17) + q.val
    rw [e0]; omega
  · show win0_1.index t (1 : Fin 2) * 128 + 1 * d.val = d.val
    rw [e1]; omega

/-- The weight block at point `t`. -/
theorem iblk2_apply (c : Dev nD) (t : Fin cfg0.N) (q : Fin 2944) (o : Fin 64) :
    (iblk m c 2 t : Vec Ideal S2944x64 .f32) (ix2 q o) = Wn m c (2944 * (t.val % 17) + q.val) o.val := by
  obtain ⟨-, -, -, -, e0, e1, -⟩ := idx_facts t
  unfold iblk
  rw [View.read_apply]
  show V m c main_v1 _ = _
  rw [V_weights]
  refine (ext2_eq (A := 50048) (B := 64) _ _ _ _ ?_ ?_).trans
    (ext2_pad_rows _ _ pads_S50000x64_S50048x64_0480_000 h_S_ padval_zero (by decide) _ _)
  · show win0_2.index t (0 : Fin 2) * 2944 + 1 * q.val = 2944 * (t.val % 17) + q.val
    rw [e0]; omega
  · show win0_2.index t (1 : Fin 2) * 64 + 1 * o.val = o.val
    rw [e1]; omega

end Cert.KernelIdeal.Blocks

end
-- ==== Proof.Accum.lean ====
/-
  The kernel's result array is the regression `G` of the argument arrays.

  Fix a query row block (512 rows) and follow its 17 grid points. After point j of the block, the accumulator at
  (r, o) holds the sum of the contributions of the first 2944·(j+1) training rows to the result at query row
  512·block + r: the first point leaves `0 + ` its 2944 contributions, and each later point adds the next 2944 to
  what the point before left (a running sum over the first `a` rows plus a block of `b` rows is the sum over the
  first `a + b`). After the last point that is the sum over all 17·2944 = 50048 rows of the padded arrays; the 48
  padded rows contribute `kw · 0 = 0`, so it is the sum over the 50000 training rows, which is `G`. The last
  point copies the accumulator to the output block, the pipeline writes that block back at exactly those points,
  and the four blocks written back tile the 2048 × 64 result array.
-/
import proofs.«110789_j33002528702615_1_alg».proof.Proof.Spec
import proofs.«110789_j33002528702615_1_alg».proof.Proof.Pieces
import proofs.«110789_j33002528702615_1_alg».proof.Proof.Payload
import proofs.«110789_j33002528702615_1_alg».proof.Proof.Blocks
import proofs.«110789_j33002528702615_1_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.Rbf

/-- A running sum over the first `b·j` rows plus the next block of `b` rows is the sum over the first `b·(j+1)`. -/
theorem block_step (f : ℕ → EReal) (b j : ℕ) :
    (∑ k ∈ Finset.range (b * j), f k) + ∑ q : Fin b, f (b * j + q.val) = ∑ k ∈ Finset.range (b * (j + 1)), f k := by
  rw [Nat.mul_add_one]
  exact sum_range_add_block f (b * j) b

/-- The first block alone, added to zero, is the sum over the first `b` rows. -/
theorem first_block (f : ℕ → EReal) (b : ℕ) :
    (0 : EReal) + ∑ q : Fin b, f (b * 0 + q.val) = ∑ k ∈ Finset.range (b * (0 + 1)), f k := by
  rw [← block_step f b 0, Nat.mul_zero, Finset.range_zero, Finset.sum_empty]

end Cert.Rbf

namespace Cert.KernelIdeal.Accum

open Cert.KernelIdeal Cert.KernelIdeal.Gen Cert.Rbf Cert.KernelIdeal.Blocks Cert.KernelIdeal.Payload Cert.KernelIdeal.Pieces

variable (m : (ℓ : Loc nD τ sig) → Buf (Elt Ideal) ℓ) (ρ : Dev nD → PrngReg)

/-- Training row `n`'s contribution to the result at query row `R`, column `o`, of the arrays as launched. -/
abbrev contrib (c : Dev nD) (R o : ℕ) : ℕ → EReal := term (Xq m c) (Tn m c) (Wn m c) R o

/-- One point's arithmetic at (r, o): what it loaded from the accumulator plus its block's 2944 contributions. -/
theorem step_apply (c : Dev nD) (t : Fin cfg0.N) (acc : Vec Ideal S512x64 .f32) (r : Fin 512) (o : Fin 64) :
    k0_pay1 (k0_pay3 (iblk m c 0 t) (iblk m c 1 t) (iblk m c 2 t) acc) (ix2 r o)
      = (acc (ix2 r o) : EReal)
        + ∑ q : Fin 2944, contrib m c (512 * (t.val / 17) + r.val) o.val (2944 * (t.val % 17) + q.val) := by
  rw [pay1_eq]
  refine (pay3_apply (iblk m c 0 t) (iblk m c 1 t) (iblk m c 2 t) acc r o).trans ?_
  refine congrArg ((acc (ix2 r o) : EReal) + ·) (Finset.sum_congr rfl fun q _ => ?_)
  simp only [contrib, term, rowSq, rowDot, iblk0_apply m c t, iblk1_apply m c t, iblk2_apply m c t]

/-- At the first point of a row block the accumulator ends at the first 2944 contributions. -/
theorem scratch_first_eq (c : Dev nD) (n : ℕ) (h : n < cfg0.N) (h0 : n % 17 = 0) (r : Fin 512) (o : Fin 64) :
    ((outsAt0 m c n h).2 (ix2 r o) : EReal)
      = ∑ k ∈ Finset.range (2944 * (n % 17 + 1)), contrib m c (512 * (n / 17) + r.val) o.val k := by
  have h1 : ¬n % 17 = 16 := by omega
  rw [outsAt0_A m c ⟨n, h⟩ h0 h1]
  dsimp only
  rw [scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (iblk m c 0 ⟨n, h⟩) (iblk m c 1 ⟨n, h⟩) (iblk m c 2 ⟨n, h⟩)]
  rw [step_apply m c ⟨n, h⟩ _ r o, pay2_apply]
  show (0 : EReal) + ∑ q : Fin 2944, contrib m c (512 * (n / 17) + r.val) o.val (2944 * (n % 17) + q.val) = _
  rw [h0]
  exact first_block _ 2944

/-- At a later point of a row block the accumulator ends at what the point before left plus the next 2944. -/
theorem scratch_next_eq (c : Dev nD) (n : ℕ) (h : n + 1 < cfg0.N) (h0 : ¬(n + 1) % 17 = 0) (r : Fin 512) (o : Fin 64)
    (ih : ∀ (r : Fin 512) (o : Fin 64), ((outsAt0 m c n (Nat.lt_of_succ_lt h)).2 (ix2 r o) : EReal)
      = ∑ k ∈ Finset.range (2944 * (n % 17 + 1)), contrib m c (512 * (n / 17) + r.val) o.val k) :
    ((outsAt0 m c (n + 1) h).2 (ix2 r o) : EReal)
      = ∑ k ∈ Finset.range (2944 * ((n + 1) % 17 + 1)), contrib m c (512 * ((n + 1) / 17) + r.val) o.val k := by
  have e1 : (n + 1) / 17 = n / 17 := by omega
  have e2 : (n + 1) % 17 = n % 17 + 1 := by omega
  by_cases h1 : (n + 1) % 17 = 16
  · rw [outsAt0_C m c ⟨n + 1, h⟩ h0 h1]
    dsimp only
    rw [scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _]
    rw [step_apply m c ⟨n + 1, h⟩ _ r o]
    show ((outsAt0 m c n _).2 (ix2 r o) : EReal)
      + ∑ q : Fin 2944, contrib m c (512 * ((n + 1) / 17) + r.val) o.val (2944 * ((n + 1) % 17) + q.val) = _
    rw [ih r o, e1, e2]
    exact block_step _ 2944 (n % 17 + 1)
  · rw [outsAt0_B m c ⟨n + 1, h⟩ h0 h1]
    dsimp only
    rw [scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _]
    rw [step_apply m c ⟨n + 1, h⟩ _ r o]
    show ((outsAt0 m c n _).2 (ix2 r o) : EReal)
      + ∑ q : Fin 2944, contrib m c (512 * ((n + 1) / 17) + r.val) o.val (2944 * ((n + 1) % 17) + q.val) = _
    rw [ih r o, e1, e2]
    exact block_step _ 2944 (n % 17 + 1)

/-- THE RUNNING SUM: after point `n` the accumulator at (r, o) is the sum of the contributions of the first
    2944·(n % 17 + 1) training rows to query row 512·(n / 17) + r — by induction on the point. -/
theorem scratch_eq (c : Dev nD) : ∀ (n : ℕ) (h : n < cfg0.N) (r : Fin 512) (o : Fin 64),
    ((outsAt0 m c n h).2 (ix2 r o) : EReal)
      = ∑ k ∈ Finset.range (2944 * (n % 17 + 1)), contrib m c (512 * (n / 17) + r.val) o.val k
  | 0, h, r, o => scratch_first_eq m c 0 h rfl r o
  | n + 1, h, r, o => by
    by_cases h0 : (n + 1) % 17 = 0
    · exact scratch_first_eq m c (n + 1) h h0 r o
    · exact scratch_next_eq m c n h h0 r o (fun r o => scratch_eq c n (Nat.lt_of_succ_lt h) r o)

/-- At the last point of a row block the output block is a copy of the accumulator. -/
theorem out_eq_scratch (c : Dev nD) (t : Fin cfg0.N) (h1 : t.val % 17 = 16) :
    (outsAt0 m c t.val t.isLt).1 = (outsAt0 m c t.val t.isLt).2 := by
  have h0 : ¬t.val % 17 = 0 := by omega
  rw [outsAt0_C m c t h0 h1]
  dsimp only
  rw [output_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _, scratch_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _]

/-- The result array: `G` of the three arguments as launched, entry by entry. -/
def result (c : Dev nD) : Buf (Elt Ideal) ((c : Thread nD τ).loc main_v2) :=
  ((fun i : S2048x64.Idx => G (Xq m c) (Tn m c) (Wn m c) (i 0).val (i 1).val) :
    S2048x64.Idx → EReal)

/-- After the last point of a row block, the accumulator is `G`: the 48 padded rows contribute nothing. -/
theorem last_eq_G (c : Dev nD) (t : Fin cfg0.N) (h1 : t.val % 17 = 16) (r : Fin 512) (o : Fin 64) :
    ((outsAt0 m c t.val t.isLt).1 (ix2 r o) : EReal) = G (Xq m c) (Tn m c) (Wn m c) (512 * (t.val / 17) + r.val) o.val := by
  rw [out_eq_scratch m c t h1, scratch_eq m c t.val t.isLt r o, h1]
  unfold G
  show ∑ k ∈ Finset.range (50000 + 48), contrib m c (512 * (t.val / 17) + r.val) o.val k = _
  exact sum_range_drop_tail _ 50000 48 (fun n hn =>
    term_of_le (B := 64) (Xq m c) (Tn m c) (m ((c : Thread nD τ).loc main_arg2)) _ _ n hn)

/-- WHAT A WRITE-BACK WRITES: at a point that writes the output block back, the block is `G` read through it. -/
theorem flushed_eq (c : Dev nD) (t : Fin cfg0.N) (hf : (cfg0.win 3).flush t = true) :
    (dats m 0 c).flushed 3 t = ((cfg0.win 3).blk t).view.read (Elt Ideal) (result m c) := by
  have h1 : t.val % 17 = 16 := (flush0_3 t).mp hf
  obtain ⟨-, -, -, -, -, -, e0, e1⟩ := idx_facts t
  rw [Value.flushed3]
  funext j
  obtain ⟨r, o, rfl⟩ : ∃ (r : Fin 512) (o : Fin 64), j = ix2 r o := ⟨j 0, j 1, eq_ix2 (n0 := 512) (n1 := 64) j⟩
  rw [View.read_apply]
  have hcut : (cfg0.win 3).cut (grid0.coords t) ((outsAt0 m c t.val t.isLt).1) (ix2 r o)
      = (outsAt0 m c t.val t.isLt).1 (ix2 r o) := rfl
  refine hcut.trans ((last_eq_G m c t h1 r o).trans ?_)
  have c0 : (((cfg0.win 3).blk t).view.emb (ix2 r o) (0 : Fin 2)).val = 512 * (t.val / 17) + r.val := by
    show win0_3.index t (0 : Fin 2) * 512 + 1 * r.val = _
    rw [e0]; omega
  have c1 : (((cfg0.win 3).blk t).view.emb (ix2 r o) (1 : Fin 2)).val = o.val := by
    show win0_3.index t (1 : Fin 2) * 64 + 1 * o.val = _
    rw [e1]; omega
  unfold result
  beta_reduce
  rw [c0, c1]
  exact (cast_eq _ _).symm

/-- An index of the result array is in point `t`'s output block iff each coordinate is in the block's range. -/
theorem mem_blk3 (t : Fin cfg0.N) (i : S2048x64.Idx) :
    i ∈ ((cfg0.win 3).blk t).view.set ↔ ∀ a : Fin 2, win0_3.index t a * S512x64.size a ≤ (i a).val
      ∧ (i a).val < win0_3.index t a * S512x64.size a + S512x64.size a := by
  show i ∈ ((View.whole main_v2).slice (win0_3.rect t)).set ↔ _
  rw [View.set_slice_whole, Rect.mem_set_unit]
  exact Iff.rfl

/-- Every entry of the result array is in the block written back at the last point of its row block. -/
theorem cover (c : Dev nD) (i : S2048x64.Idx) :
    ∃ t : Fin cfg0.N, (cfg0.win 3).flush t = true ∧ i ∈ ((cfg0.win 3).blk t).view.set := by
  have hN : cfg0.N = 68 := N_0
  have hi0 : (i 0).val < 2048 := idx2_lt0 i
  have hi1 : (i 1).val < 64 := idx2_lt1 i
  obtain ⟨t, ht⟩ : ∃ t : Fin cfg0.N, t.val = 17 * ((i 0).val / 512) + 16 := ⟨⟨17 * ((i 0).val / 512) + 16, by rw [hN]; omega⟩, rfl⟩
  obtain ⟨-, -, -, -, -, -, e0, e1⟩ := idx_facts t
  refine ⟨t, (flush0_3 t).mpr (by omega), ?_⟩
  rw [mem_blk3]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 64 ≤ (i 1).val ∧ (i 1).val < win0_3.index t (1 : Fin 2) * 64 + 64
    rw [e1]; omega

/-- THE RESULT ARRAY after the run is `G` of the arguments. -/
theorem final (c : Dev nD) : (dats m 0 c).arrAt 3 cfg0.N = result m c :=
  (dats m 0 c).arrAt_eq_of_cover 3 (result m c) (fun t hf => flushed_eq m c t hf) (cover c)

/-- The kernel's run, read: every execution ends with the result array at `G` and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Accum

end
-- ==== Proof.RefSide.lean ====
/-
  The reference's result, index by index, is the regression `G` of the argument arrays.

  The reference forms the 2048 × 50000 matrix of weights from whole-array operations — the squared row norms by a
  sum over the columns from a zero initial value, the inner products by one matrix product against the transposed
  training array, then the pointwise chain — and multiplies it by the weight array. Read at an entry through the
  generated index-by-index lemmas, the weight at (r, n) is `kw` of row r's and row n's squared norms and their
  inner product (the zero initial values drop by `0 + x = x`), and the result at (r, o) is the sum over the 50000
  training rows of weight times w[n, o].
-/
import proofs.«110789_j33002528702615_1_alg».proof.Proof.Spec
import proofs.«110789_j33002528702615_1_alg».proof.Proof.Gen.ReferenceIdeal.Read
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Rbf

/-- The weight matrix at (r, n): `kw` of the two rows' squared norms and their inner product. -/
theorem weight_eq (x0 : (⟨S2048x128, .f32⟩ : BufTy).Contents (Elt Ideal)) (x1 : (⟨S50000x128, .f32⟩ : BufTy).Contents (Elt Ideal))
    (i : S2048x64.Idx) (k : Fin 50000) :
    val_main_v22 (F := Ideal) x0 x1 (lidx_main_v23 i k)
      = kw (rowSq (ext2 (A := 2048) (B := 128) x0) (i 0).val) (rowSq (ext2 (A := 50000) (B := 128) x1) k.val)
          (rowDot (ext2 (A := 2048) (B := 128) x0) (ext2 (A := 50000) (B := 128) x1) (i 0).val k.val) := by
  simp only [val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply, val_main_cst_3_apply, val_main_cst_4_apply,
    Ideal.hostUnary_exp_def, Ideal.hostUnary_sqrt_def, Ideal.hostDivf_def, Ideal.hostNegf_def, Ideal.negf_def, Ideal.maximumf_def,
    Ideal.subf_def, Ideal.addf_def, Ideal.mulf_def, Ideal.ofBits_def]
  have hx : ∀ d : Fin 128, x0 (idx_main_v1 (idx_main_v2 (idx_main_v6 (lidx_main_v23 i k))) d)
      = ext2 (A := 2048) (B := 128) x0 (i 0).val d.val := fun d => ext2_eq (A := 2048) (B := 128) x0 _ _ _ rfl rfl
  have ht : ∀ d : Fin 128, x1 (idx_main_v4 (idx_main_v5 (idx_main_v7 (lidx_main_v23 i k))) d)
      = ext2 (A := 50000) (B := 128) x1 k.val d.val := fun d => ext2_eq (A := 50000) (B := 128) x1 _ _ _ rfl rfl
  have hx' : ∀ d : Fin 128, x0 (lidx_main_v10 (lidx_main_v23 i k) d)
      = ext2 (A := 2048) (B := 128) x0 (i 0).val d.val := fun d => ext2_eq (A := 2048) (B := 128) x0 _ _ _ rfl rfl
  have ht' : ∀ d : Fin 128, x1 (idx_main_v9 (ridx_main_v10 (lidx_main_v23 i k) d))
      = ext2 (A := 50000) (B := 128) x1 k.val d.val := fun d => ext2_eq (A := 50000) (B := 128) x1 _ _ _ rfl rfl
  simp only [hx, ht, hx', ht', Ideal.ofBits_zero_f32, zero_add]
  rfl

/-- The reference's result is `G` of its three arguments, entry by entry. -/
theorem result_eq (x0 : (⟨S2048x128, .f32⟩ : BufTy).Contents (Elt Ideal)) (x1 : (⟨S50000x128, .f32⟩ : BufTy).Contents (Elt Ideal))
    (x2 : (⟨S50000x64, .f32⟩ : BufTy).Contents (Elt Ideal)) :
    val_main_v23 (F := Ideal) x0 x1 x2
      = fun i => G (ext2 (A := 2048) (B := 128) x0) (ext2 (A := 50000) (B := 128) x1) (ext2 (A := 50000) (B := 64) x2) (i 0).val (i 1).val := by
  funext i
  rw [val_main_v23_apply]
  unfold G
  rw [Finset.sum_range]
  refine Finset.sum_congr rfl fun k _ => ?_
  rw [weight_eq x0 x1 i k]
  unfold term
  exact congrArg (_ * ·) (ext2_eq (A := 50000) (B := 64) x2 _ _ _ rfl rfl)

end Cert.ReferenceIdeal.RefValue

end
-- ==== Proof.lean ====
/-
  A Gaussian-kernel regression: for 2048 query rows x_r and 50000 training rows t_n of 128 features, with
  training weights w[n, o] (64 columns), both programs compute

      out[r, o] = ∑_{n < 50000} exp ( ( -sqrt (max (|x_r|² + |t_n|² - 2·⟨x_r, t_n⟩) 0) / c ) / 2 ) · w[n, o],

  with the same constant c and the same literals on both sides. The reference forms the whole 2048 × 50000 weight
  matrix and multiplies it by the weight array. The kernel pads the training and weight arrays with 48 zero rows
  to 50048 = 17 · 2944, tiles the query rows in 4 blocks of 512 and the training rows in 17 blocks of 2944, and for
  each query block accumulates the 17 partial products in a scratch block, reset at the block's first point and
  copied to the output at its last.

  Over the extended reals the two agree entry by entry: a format change is the identity; a lane sum, a host sum
  from a zero initial value and a matrix product into a zero accumulator are plain sums; `0 - s = -s`; the
  seventeen partial sums re-associate into one sum over 50048 rows (Proof/Accum.lean, by induction on the grid
  point); and each padded row contributes `weight · 0 = 0`. None of this needs the inputs finite, so the
  precondition is not used. The idealization rewrote nothing, so `preserves` is `True`. The three frames are the
  generated ones (the reference's is its generated run with the result dropped).
-/
import proofs.«110789_j33002528702615_1_alg».proof.Defs
import proofs.«110789_j33002528702615_1_alg».proof.Proof.Gen.Kernel
import proofs.«110789_j33002528702615_1_alg».proof.Proof.Gen.Kernel.Skeleton
import proofs.«110789_j33002528702615_1_alg».proof.Proof.Gen.Kernel.Launch
import proofs.«110789_j33002528702615_1_alg».proof.Proof.Gen.Kernel.Points
import proofs.«110789_j33002528702615_1_alg».proof.Proof.Gen.Kernel.Frame
import proofs.«110789_j33002528702615_1_alg».proof.Proof.Gen.KernelIdeal
import proofs.«110789_j33002528702615_1_alg».proof.Proof.Gen.KernelIdeal.Skeleton
import proofs.«110789_j33002528702615_1_alg».proof.Proof.Gen.KernelIdeal.Launch
import proofs.«110789_j33002528702615_1_alg».proof.Proof.Gen.KernelIdeal.Points
import proofs.«110789_j33002528702615_1_alg».proof.Proof.Gen.KernelIdeal.Frame
import proofs.«110789_j33002528702615_1_alg».proof.Proof.Gen.ReferenceIdeal
import proofs.«110789_j33002528702615_1_alg».proof.Proof.Gen.Pre_finite_inputs
import proofs.«110789_j33002528702615_1_alg».proof.Proof.Accum
import proofs.«110789_j33002528702615_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments, the kernel's result array ends at `G` of its arguments
    (Proof/Accum.lean) and the reference's at `G` of its own (Proof/RefSide.lean): the same array. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
